-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500x100000 : Shape := ⟨2, ![500, 100000]⟩
abbrev S100000x2 : Shape := ⟨2, ![100000, 2]⟩
abbrev S500x61 : Shape := ⟨2, ![500, 61]⟩
abbrev S1 : Shape := ⟨1, ![1]⟩
abbrev S25 : Shape := ⟨1, ![25]⟩
abbrev S_ : Shape := ⟨0, ![]⟩

class Facts : Prop where
  bcast_S_S500x100000 : S_.BroadcastsInDim S500x100000 (![] : Fin 0 → Fin S500x100000.rank)
  reducesTo_S500x100000_S_d0_1 : S500x100000.ReducesTo [0, 1] S_
  h_S_ : 0 < S_.numel
  bcast_S_S100000x2 : S_.BroadcastsInDim S100000x2 (![] : Fin 0 → Fin S100000x2.rank)
  reducesTo_S100000x2_S_d0_1 : S100000x2.ReducesTo [0, 1] S_
  bcast_S_S500x61 : S_.BroadcastsInDim S500x61 (![] : Fin 0 → Fin S500x61.rank)
  reducesTo_S500x61_S_d0_1 : S500x61.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S500x100000 .f32) (main_arg1 : FVec F S100000x2 .f32) (main_arg2 : FVec F S500x61 .f32) (main_arg3 : FVec F S1 .f32) (main_arg4 : FVec F S1 .f32) (main_arg5 : IVec S25 32) : IVec S_ 1 :=
  let main_v0 : FVec F S500x100000 .f32 := Host.absf main_arg0
  let main_cst : FVec F S_ .f32 := constant S_ .f32 0x7F800000#32
  let main_v1 : FVec F S500x100000 .f32 := broadcastInDim S500x100000 ![] bcast_S_S500x100000 main_cst
  let main_v2 : IVec S500x100000 1 := cmpf .olt main_v0 main_v1
  let main_c : IVec S_ 1 := constantI S_ 1 1#1
  let main_v3 : IVec S_ 1 := (fun x v => Host.reduce IntOp.andi x v reducesTo_S500x100000_S_d0_1 h_S_) main_v2 main_c
  let main_v4 : FVec F S100000x2 .f32 := Host.absf main_arg1
  let main_cst_0 : FVec F S_ .f32 := constant S_ .f32 0x7F800000#32
  let main_v5 : FVec F S100000x2 .f32 := broadcastInDim S100000x2 ![] bcast_S_S100000x2 main_cst_0
  let main_v6 : IVec S100000x2 1 := cmpf .olt main_v4 main_v5
  let main_c_1 : IVec S_ 1 := constantI S_ 1 1#1
  let main_v7 : IVec S_ 1 := (fun x v => Host.reduce IntOp.andi x v reducesTo_S100000x2_S_d0_1 h_S_) main_v6 main_c_1
  let main_v8 : IVec S_ 1 := andi main_v3 main_v7
  let main_v9 : FVec F S500x61 .f32 := Host.absf main_arg2
  let main_cst_2 : FVec F S_ .f32 := constant S_ .f32 0x7F800000#32
  let main_v10 : FVec F S500x61 .f32 := broadcastInDim S500x61 ![] bcast_S_S500x61 main_cst_2
  let main_v11 : IVec S500x61 1 := cmpf .olt main_v9 main_v10
  let main_c_3 : IVec S_ 1 := constantI S_ 1 1#1
  let main_v12 : IVec S_ 1 := (fun x v => Host.reduce IntOp.andi x v reducesTo_S500x61_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_v13 main_v16
-- ==== Kernel.lean ====
abbrev S500x100000 : Shape := ⟨2, ![500, 100000]⟩
abbrev S100000x2 : Shape := ⟨2, ![100000, 2]⟩
abbrev S500x61 : Shape := ⟨2, ![500, 61]⟩
abbrev S1 : Shape := ⟨1, ![1]⟩
abbrev S25 : Shape := ⟨1, ![25]⟩
abbrev S_ : Shape := ⟨0, ![]⟩
abbrev S25x1 : Shape := ⟨2, ![25, 1]⟩
abbrev S25x100000 : Shape := ⟨2, ![25, 100000]⟩
abbrev S100000x25 : Shape := ⟨2, ![100000, 25]⟩
abbrev S25x61 : Shape := ⟨2, ![25, 61]⟩
abbrev S100000x32x64 : Shape := ⟨3, ![100000, 32, 64]⟩
abbrev S1000x25 : Shape := ⟨2, ![1000, 25]⟩
abbrev S1000x2 : Shape := ⟨2, ![1000, 2]⟩
abbrev S1000x32x64 : Shape := ⟨3, ![1000, 32, 64]⟩
abbrev S1x25x61 : Shape := ⟨3, ![1, 25, 61]⟩
abbrev S1000x25x61 : Shape := ⟨3, ![1000, 25, 61]⟩
abbrev S1000x1x2 : Shape := ⟨3, ![1000, 1, 2]⟩
abbrev S1000x25x2 : Shape := ⟨3, ![1000, 25, 2]⟩
abbrev S1000x25x1 : Shape := ⟨3, ![1000, 25, 1]⟩
abbrev S1000x7x64 : Shape := ⟨3, ![1000, 7, 64]⟩

abbrev nBuf : Space → Nat
  | .hbm => 32
  | .vmem => 7
  | .smem => 0
  | _ => 0

abbrev bufTy : (tb : Table) → Fin (tcTables nBuf tb) → BufTy
  | .hbm, ⟨0, _⟩ => ⟨S500x100000, .f32⟩
  | .hbm, ⟨1, _⟩ => ⟨S100000x2, .f32⟩
  | .hbm, ⟨2, _⟩ => ⟨S500x61, .f32⟩
  | .hbm, ⟨3, _⟩ => ⟨S1, .f32⟩
  | .hbm, ⟨4, _⟩ => ⟨S1, .f32⟩
  | .hbm, ⟨5, _⟩ => ⟨S25, .i32⟩
  | .hbm, ⟨6, _⟩ => ⟨S_, .i32⟩
  | .hbm, ⟨7, _⟩ => ⟨S25, .i32⟩
  | .hbm, ⟨8, _⟩ => ⟨S25, .i1⟩
  | .hbm, ⟨9, _⟩ => ⟨S_, .i32⟩
  | .hbm, ⟨10, _⟩ => ⟨S25, .i32⟩
  | .hbm, ⟨11, _⟩ => ⟨S25, .i32⟩
  | .hbm, ⟨12, _⟩ => ⟨S25, .i32⟩
  | .hbm, ⟨13, _⟩ => ⟨S25x1, .i32⟩
  | .hbm, ⟨14, _⟩ => ⟨S25x100000, .f32⟩
  | .hbm, ⟨15, _⟩ => ⟨S_, .f32⟩
  | .hbm, ⟨16, _⟩ => ⟨S25x100000, .f32⟩
  | .hbm, ⟨17, _⟩ => ⟨S25x100000, .f32⟩
  | .hbm, ⟨18, _⟩ => ⟨S_, .f32⟩
  | .hbm, ⟨19, _⟩ => ⟨S25x100000, .f32⟩
  | .hbm, ⟨20, _⟩ => ⟨S25x100000, .f32⟩
  | .hbm, ⟨21, _⟩ => ⟨S100000x25, .f32⟩
  | .hbm, ⟨22, _⟩ => ⟨S_, .i32⟩
  | .hbm, ⟨23, _⟩ => ⟨S25, .i32⟩
  | .hbm, ⟨24, _⟩ => ⟨S25, .i1⟩
  | .hbm, ⟨25, _⟩ => ⟨S_, .i32⟩
  | .hbm, ⟨26, _⟩ => ⟨S25, .i32⟩
  | .hbm, ⟨27, _⟩ => ⟨S25, .i32⟩
  | .hbm, ⟨28, _⟩ => ⟨S25, .i32⟩
  | .hbm, ⟨29, _⟩ => ⟨S25x1, .i32⟩
  | .hbm, ⟨30, _⟩ => ⟨S25x61, .f32⟩
  | .hbm, ⟨31, _⟩ => ⟨S100000x32x64, .f32⟩
  | .local _ .vmem, ⟨0, _⟩ => ⟨S1000x25, .f32⟩
  | .local _ .vmem, ⟨1, _⟩ => ⟨S1000x25, .f32⟩
  | .local _ .vmem, ⟨2, _⟩ => ⟨S25x61, .f32⟩
  | .local _ .vmem, ⟨3, _⟩ => ⟨S1000x2, .f32⟩
  | .local _ .vmem, ⟨4, _⟩ => ⟨S1000x2, .f32⟩
  | .local _ .vmem, ⟨5, _⟩ => ⟨S1000x32x64, .f32⟩
  | .local _ .vmem, ⟨6, _⟩ => ⟨S1000x32x64, .f32⟩
  | _, _ => ⟨S500x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1000x25 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S25x61 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x32x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S25 : S_.BroadcastsInDim S25 (![] : Fin 0 → Fin S25.rank)
  bcast_S25_S25x1_0 : S25.BroadcastsInDim S25x1 (![0] : Fin 1 → Fin S25x1.rank)
  shapeCasts_S1_S_ : S1.ShapeCasts S_
  bcast_S_S25x100000 : S_.BroadcastsInDim S25x100000 (![] : Fin 0 → Fin S25x100000.rank)
  transposes_S25x100000_S100000x25_1_0 : S25x100000.Transposes [1, 0] S100000x25
  inb_S25x61_S25x61_0_0 : ∀ a, (![0, 0] : Fin 2 → Nat) a + S25x61.size a ≤ S25x61.size a
  h_S25x61 : 0 < S25x61.numel
  shapeCasts_S25x61_S25x61 : S25x61.ShapeCasts S25x61
  inb_S1000x25_S1000x25_0_0 : ∀ a, (![0, 0] : Fin 2 → Nat) a + S1000x25.size a ≤ S1000x25.size a
  h_S1000x25 : 0 < S1000x25.numel
  shapeCasts_S1000x25_S1000x25 : S1000x25.ShapeCasts S1000x25
  inb_S1000x2_S1000x2_0_0 : ∀ a, (![0, 0] : Fin 2 → Nat) a + S1000x2.size a ≤ S1000x2.size a
  h_S1000x2 : 0 < S1000x2.numel
  shapeCasts_S25x61_S1x25x61 : S25x61.ShapeCasts S1x25x61
  shapeCasts_S1x25x61_S1x25x61 : S1x25x61.ShapeCasts S1x25x61
  broadcasts_S1x25x61_S1000x25x61 : S1x25x61.Broadcasts S1000x25x61
  shapeCasts_S1000x2_S1000x1x2 : S1000x2.ShapeCasts S1000x1x2
  shapeCasts_S1000x1x2_S1000x1x2 : S1000x1x2.ShapeCasts S1000x1x2
  broadcasts_S1000x1x2_S1000x25x2 : S1000x1x2.Broadcasts S1000x25x2
  inb_S1000x32x64_S1000x25x61_0_0_0 : ∀ a, (![0, 0, 0] : Fin 3 → Nat) a + S1000x25x61.size a ≤ S1000x32x64.size a
  h_S1000x25x61 : 0 < S1000x25x61.numel
  shapeCasts_S1000x25_S1000x25x1 : S1000x25.ShapeCasts S1000x25x1
  inb_S1000x32x64_S1000x25x1_0_0_61 : ∀ a, (![0, 0, 61] : Fin 3 → Nat) a + S1000x25x1.size a ≤ S1000x32x64.size a
  h_S1000x25x1 : 0 < S1000x25x1.numel
  inb_S1000x32x64_S1000x25x2_0_0_62 : ∀ a, (![0, 0, 62] : Fin 3 → Nat) a + S1000x25x2.size a ≤ S1000x32x64.size a
  h_S1000x25x2 : 0 < S1000x25x2.numel
  inb_S1000x32x64_S1000x7x64_0_25_0 : ∀ a, (![0, 25, 0] : Fin 3 → Nat) a + S1000x7x64.size a ≤ S1000x32x64.size a
  h_S1000x7x64 : 0 < S1000x7x64.numel
  gather_S500x100000_S25x1_S25x100000_1_0_n_n_0_1_1100000_wf : GatherDims.WF S500x100000 S25x1 S25x100000 [1] [0] [] [0] [] 1 ![1, 100000]
  gather_S500x61_S25x1_S25x61_1_0_n_n_0_1_161_wf : GatherDims.WF S500x61 S25x1 S25x61 [1] [0] [] [0] [] 1 ![1, 61]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x25.size a ≤ S100000x25.size a
  hwx0_0 : ∀ i : grid0.Coords, EltTy.bits .f32 = 32 ∨ (Rect.block (s := S100000x25) S1000x25.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S25x61.size a ≤ S25x61.size a
  hwx0_1 : ∀ i : grid0.Coords, EltTy.bits .f32 = 32 ∨ (Rect.block (s := S25x61) S25x61.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x2.size a ≤ S100000x2.size a
  hwx0_2 : ∀ i : grid0.Coords, EltTy.bits .f32 = 32 ∨ (Rect.block (s := S100000x2) S1000x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x32x64.size a ≤ S100000x32x64.size a
  hwx0_3 : ∀ i : grid0.Coords, EltTy.bits .f32 = 32 ∨ (Rect.block (s := S100000x32x64) S1000x32x64.size (cc0_transform_3 i) (hinb0_3 i)).WholeWords (EltTy.packing .f32)

variable [Facts₀]

def gather_S500x100000_S25x1_S25x100000_1_0_n_n_0_1_1100000 : GatherDims S500x100000 S25x1 S25x100000 where
  offsetDims := [1]
  collapsedSliceDims := [0]
  operandBatchingDims := []
  startIndicesBatchingDims := []
  startIndexMap := [0]
  indexVectorDim := 1
  sliceSizes := ![1, 100000]
  wf := gather_S500x100000_S25x1_S25x100000_1_0_n_n_0_1_1100000_wf
def gather_S500x61_S25x1_S25x61_1_0_n_n_0_1_161 : GatherDims S500x61 S25x1 S25x61 where
  offsetDims := [1]
  collapsedSliceDims := [0]
  operandBatchingDims := []
  startIndicesBatchingDims := []
  startIndexMap := [0]
  indexVectorDim := 1
  sliceSizes := ![1, 61]
  wf := gather_S500x61_S25x1_S25x61_1_0_n_n_0_1_161_wf

abbrev win0_0 : Pipeline.Window sig grid0 :=
  Pipeline.Window.ofSpec (Memref.whole main_v13) S1000x25.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S25x61.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1000x32x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S500x100000 : Shape := ⟨2, ![500, 100000]⟩
abbrev S100000x2 : Shape := ⟨2, ![100000, 2]⟩
abbrev S500x61 : Shape := ⟨2, ![500, 61]⟩
abbrev S1 : Shape := ⟨1, ![1]⟩
abbrev S25 : Shape := ⟨1, ![25]⟩
abbrev S_ : Shape := ⟨0, ![]⟩
abbrev S25x1 : Shape := ⟨2, ![25, 1]⟩
abbrev S25x100000 : Shape := ⟨2, ![25, 100000]⟩
abbrev S100000x25 : Shape := ⟨2, ![100000, 25]⟩
abbrev S100000x25x1 : Shape := ⟨3, ![100000, 25, 1]⟩
abbrev S25x61 : Shape := ⟨2, ![25, 61]⟩
abbrev S1x25x61 : Shape := ⟨3, ![1, 25, 61]⟩
abbrev S100000x25x61 : Shape := ⟨3, ![100000, 25, 61]⟩
abbrev S100000x1x2 : Shape := ⟨3, ![100000, 1, 2]⟩
abbrev S100000x25x2 : Shape := ⟨3, ![100000, 25, 2]⟩
abbrev S100000x25x64 : Shape := ⟨3, ![100000, 25, 64]⟩
abbrev S100000x7x64 : Shape := ⟨3, ![100000, 7, 64]⟩
abbrev S100000x32x64 : Shape := ⟨3, ![100000, 32, 64]⟩

abbrev nBuf : Space → Nat
  | .hbm => 40
  | .vmem => 0
  | .smem => 0
  | _ => 0

abbrev bufTy : (tb : Table) → Fin (tcTables nBuf tb) → BufTy
  | .hbm, ⟨0, _⟩ => ⟨S500x100000, .f32⟩
  | .hbm, ⟨1, _⟩ => ⟨S100000x2, .f32⟩
  | .hbm, ⟨2, _⟩ => ⟨S500x61, .f32⟩
  | .hbm, ⟨3, _⟩ => ⟨S1, .f32⟩
  | .hbm, ⟨4, _⟩ => ⟨S1, .f32⟩
  | .hbm, ⟨5, _⟩ => ⟨S25, .i32⟩
  | .hbm, ⟨6, _⟩ => ⟨S_, .i32⟩
  | .hbm, ⟨7, _⟩ => ⟨S25, .i32⟩
  | .hbm, ⟨8, _⟩ => ⟨S25, .i1⟩
  | .hbm, ⟨9, _⟩ => ⟨S_, .i32⟩
  | .hbm, ⟨10, _⟩ => ⟨S25, .i32⟩
  | .hbm, ⟨11, _⟩ => ⟨S25, .i32⟩
  | .hbm, ⟨12, _⟩ => ⟨S25, .i32⟩
  | .hbm, ⟨13, _⟩ => ⟨S25x1, .i32⟩
  | .hbm, ⟨14, _⟩ => ⟨S25x100000, .f32⟩
  | .hbm, ⟨15, _⟩ => ⟨S_, .f32⟩
  | .hbm, ⟨16, _⟩ => ⟨S25x100000, .f32⟩
  | .hbm, ⟨17, _⟩ => ⟨S25x100000, .f32⟩
  | .hbm, ⟨18, _⟩ => ⟨S_, .f32⟩
  | .hbm, ⟨19, _⟩ => ⟨S25x100000, .f32⟩
  | .hbm, ⟨20, _⟩ => ⟨S25x100000, .f32⟩
  | .hbm, ⟨21, _⟩ => ⟨S100000x25, .f32⟩
  | .hbm, ⟨22, _⟩ => ⟨S100000x25x1, .f32⟩
  | .hbm, ⟨23, _⟩ => ⟨S_, .i32⟩
  | .hbm, ⟨24, _⟩ => ⟨S25, .i32⟩
  | .hbm, ⟨25, _⟩ => ⟨S25, .i1⟩
  | .hbm, ⟨26, _⟩ => ⟨S_, .i32⟩
  | .hbm, ⟨27, _⟩ => ⟨S25, .i32⟩
  | .hbm, ⟨28, _⟩ => ⟨S25, .i32⟩
  | .hbm, ⟨29, _⟩ => ⟨S25, .i32⟩
  | .hbm, ⟨30, _⟩ => ⟨S25x1, .i32⟩
  | .hbm, ⟨31, _⟩ => ⟨S25x61, .f32⟩
  | .hbm, ⟨32, _⟩ => ⟨S1x25x61, .f32⟩
  | .hbm, ⟨33, _⟩ => ⟨S100000x25x61, .f32⟩
  | .hbm, ⟨34, _⟩ => ⟨S100000x1x2, .f32⟩
  | .hbm, ⟨35, _⟩ => ⟨S100000x25x2, .f32⟩
  | .hbm, ⟨36, _⟩ => ⟨S100000x25x64, .f32⟩
  | .hbm, ⟨37, _⟩ => ⟨S_, .f32⟩
  | .hbm, ⟨38, _⟩ => ⟨S100000x7x64, .f32⟩
  | .hbm, ⟨39, _⟩ => ⟨S100000x32x64, .f32⟩
  | _, _ => ⟨S500x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  bcast_S_S25 : S_.BroadcastsInDim S25 (![] : Fin 0 → Fin S25.rank)
  bcast_S25_S25x1_0 : S25.BroadcastsInDim S25x1 (![0] : Fin 1 → Fin S25x1.rank)
  shapeCasts_S1_S_ : S1.ShapeCasts S_
  bcast_S_S25x100000 : S_.BroadcastsInDim S25x100000 (![] : Fin 0 → Fin S25x100000.rank)
  transposes_S25x100000_S100000x25_1_0 : S25x100000.Transposes [1, 0] S100000x25
  bcast_S100000x25_S100000x25x1_0_1 : S100000x25.BroadcastsInDim S100000x25x1 (![0, 1] : Fin 2 → Fin S100000x25x1.rank)
  bcast_S25x61_S1x25x61_1_2 : S25x61.BroadcastsInDim S1x25x61 (![1, 2] : Fin 2 → Fin S1x25x61.rank)
  bcast_S1x25x61_S100000x25x61_0_1_2 : S1x25x61.BroadcastsInDim S100000x25x61 (![0, 1, 2] : Fin 3 → Fin S100000x25x61.rank)
  bcast_S100000x2_S100000x1x2_0_2 : S100000x2.BroadcastsInDim S100000x1x2 (![0, 2] : Fin 2 → Fin S100000x1x2.rank)
  bcast_S100000x1x2_S100000x25x2_0_1_2 : S100000x1x2.BroadcastsInDim S100000x25x2 (![0, 1, 2] : Fin 3 → Fin S100000x25x2.rank)
  concatenates_S100000x25x61_S100000x25x1_S100000x25x2_S100000x25x64_d2 : Shape.Concatenates [S100000x25x61, S100000x25x1, S100000x25x2] S100000x25x64 2
  bcast_S_S100000x7x64 : S_.BroadcastsInDim S100000x7x64 (![] : Fin 0 → Fin S100000x7x64.rank)
  concatenates_S100000x25x64_S100000x7x64_S100000x32x64_d1 : Shape.Concatenates [S100000x25x64, S100000x7x64] S100000x32x64 1
  gather_S500x100000_S25x1_S25x100000_1_0_n_n_0_1_1100000_wf : GatherDims.WF S500x100000 S25x1 S25x100000 [1] [0] [] [0] [] 1 ![1, 100000]
  gather_S500x61_S25x1_S25x61_1_0_n_n_0_1_161_wf : GatherDims.WF S500x61 S25x1 S25x61 [1] [0] [] [0] [] 1 ![1, 61]

variable [Facts₀]

def gather_S500x100000_S25x1_S25x100000_1_0_n_n_0_1_1100000 : GatherDims S500x100000 S25x1 S25x100000 where
  offsetDims := [1]
  collapsedSliceDims := [0]
  operandBatchingDims := []
  startIndicesBatchingDims := []
  startIndexMap := [0]
  indexVectorDim := 1
  sliceSizes := ![1, 100000]
  wf := gather_S500x100000_S25x1_S25x100000_1_0_n_n_0_1_1100000_wf
def gather_S500x61_S25x1_S25x61_1_0_n_n_0_1_161 : GatherDims S500x61 S25x1 S25x61 where
  offsetDims := [1]
  collapsedSliceDims := [0]
  operandBatchingDims := []
  startIndicesBatchingDims := []
  startIndexMap := [0]
  indexVectorDim := 1
  sliceSizes := ![1, 61]
  wf := gather_S500x61_S25x1_S25x61_1_0_n_n_0_1_161_wf

class Facts : Prop extends Facts₀ where

variable [Facts]
-- ==== Proof.Tokens.lean ====
/-
  The token tensor. For `n` time steps, a normalised reading `Z[t, j]` for each of the 25 tokens (the node itself and
  its 24 neighbours), the spatial embedding `SP[j, d]` of each token's node (61 numbers) and the temporal embedding
  `TE[t, e]` of each step (2 numbers), entry `(t, j, d)` of the padded token tensor [n, 32, 64] is

      SP[j, d]        for j < 25 and d < 61          (the token's place)
      Z[t, j]         for j < 25 and d = 61          (its reading at step t)
      TE[t, d - 62]   for j < 25 and 62 ≤ d          (the step's time code)
      z               for 25 ≤ j                     (padding rows; z is the zero word)

  The function is stated once for every `n`, so that a block of 1000 consecutive steps of the tensor over 100000 steps
  is the same function of the corresponding blocks of `Z` and `TE` (`tokenAt_block`): the rows `j` and columns `d` are
  not cut, only the time axis is.
-/
import Idealize.ShloMosaic.PureOps.Ideal
import Idealize.ShloMosaic.Lib.ValueIdx

noncomputable section

namespace Cert.Tokens

open Idealize.ShloMosaic Idealize.ShloMosaic.ValueIdx

variable {α : Type}

/-- A matrix read at a pair of natural coordinates below its extents. -/
def at2 {a b : Nat} (X : (⟨2, ![a, b]⟩ : Shape).Idx → α) (p q : Nat) (hp : p < a) (hq : q < b) : α :=
  X (ix2 ⟨p, hp⟩ ⟨q, hq⟩)

/-- Reading at equal coordinates gives equal entries. -/
theorem at2_congr {a b : Nat} (X : (⟨2, ![a, b]⟩ : Shape).Idx → α) {p q p' q' : Nat} (hp : p < a) (hq : q < b)
    (hp' : p' < a) (hq' : q' < b) (e1 : p = p') (e2 : q = q') : at2 X p q hp hq = at2 X p' q' hp' hq' := by
  subst e1 e2; rfl

/-- A matrix at an index is the matrix read at the index's two coordinates. -/
theorem eq_at2 {a b : Nat} (X : (⟨2, ![a, b]⟩ : Shape).Idx → α) (j : (⟨2, ![a, b]⟩ : Shape).Idx) :
    X j = at2 X (j 0).val (j 1).val (j 0).isLt (j 1).isLt := by
  unfold at2
  exact congrArg X (funext fun d => by match d with | ⟨0, _⟩ => rfl | ⟨1, _⟩ => rfl)

/-- Entry `(t, j, d)` of the token tensor over `n` steps. -/
def tokenAt (n : Nat) (z : α) (Z : (⟨2, ![n, 25]⟩ : Shape).Idx → α) (SP : (⟨2, ![25, 61]⟩ : Shape).Idx → α)
    (TE : (⟨2, ![n, 2]⟩ : Shape).Idx → α) (t j d : Nat) (ht : t < n) (hd : d < 64) : α :=
  if h1 : j < 25 then
    if h2 : d < 61 then at2 SP j d h1 h2
    else if d = 61 then at2 Z t j ht h1
    else at2 TE t (d - 62) ht (by omega)
  else z

/-- The token tensor over `n` steps as an array [n, 32, 64]. -/
def tokens (n : Nat) (z : α) (Z : (⟨2, ![n, 25]⟩ : Shape).Idx → α) (SP : (⟨2, ![25, 61]⟩ : Shape).Idx → α)
    (TE : (⟨2, ![n, 2]⟩ : Shape).Idx → α) : (⟨3, ![n, 32, 64]⟩ : Shape).Idx → α := fun i =>
  tokenAt n z Z SP TE (i 0).val (i 1).val (i 2).val (i 0).isLt (i 2).isLt

variable (n : Nat) (z : α) (Z : (⟨2, ![n, 25]⟩ : Shape).Idx → α) (SP : (⟨2, ![25, 61]⟩ : Shape).Idx → α)
  (TE : (⟨2, ![n, 2]⟩ : Shape).Idx → α)

/-- A token row's first 61 columns hold the spatial embedding. -/
theorem tokenAt_place (t j d : Nat) (ht : t < n) (hd : d < 64) (h1 : j < 25) (h2 : d < 61) :
    tokenAt n z Z SP TE t j d ht hd = at2 SP j d h1 h2 := by
  unfold tokenAt; rw [dif_pos h1, dif_pos h2]

/-- Column 61 of a token row holds the token's reading at the step. -/
theorem tokenAt_reading (t j d : Nat) (ht : t < n) (hd : d < 64) (h1 : j < 25) (h2 : d = 61) :
    tokenAt n z Z SP TE t j d ht hd = at2 Z t j ht h1 := by
  unfold tokenAt; rw [dif_pos h1, dif_neg (by omega), if_pos h2]

/-- Columns 62 and 63 of a token row hold the step's time code. -/
theorem tokenAt_time (t j d : Nat) (ht : t < n) (hd : d < 64) (h1 : j < 25) (h2 : 62 ≤ d) :
    tokenAt n z Z SP TE t j d ht hd = at2 TE t (d - 62) ht (by omega) := by
  unfold tokenAt; rw [dif_pos h1, dif_neg (by omega), if_neg (by omega)]

/-- Rows 25 to 31 are padding. -/
theorem tokenAt_pad (t j d : Nat) (ht : t < n) (hd : d < 64) (h1 : 25 ≤ j) :
    tokenAt n z Z SP TE t j d ht hd = z := by
  unfold tokenAt; rw [dif_neg (by omega)]

/-- The tensor over `nb` steps built from blocks of the readings and time codes that start at step `s` of the long
    tables (and from a copy of the spatial embeddings) is the long tensor `s` steps further along: only the time axis is
    cut. The long tensor's coordinates are given up to equations, as a block's position in an array presents them. -/
theorem tokenAt_block (nb : Nat) (Zb : (⟨2, ![nb, 25]⟩ : Shape).Idx → α) (SPb : (⟨2, ![25, 61]⟩ : Shape).Idx → α)
    (TEb : (⟨2, ![nb, 2]⟩ : Shape).Idx → α) (s : Nat)
    (hZ : ∀ (t j : Nat) (ht : t < nb) (hj : j < 25) (ht' : s + t < n), at2 Zb t j ht hj = at2 Z (s + t) j ht' hj)
    (hSP : ∀ (j d : Nat) (hj : j < 25) (hd : d < 61), at2 SPb j d hj hd = at2 SP j d hj hd)
    (hTE : ∀ (t e : Nat) (ht : t < nb) (he : e < 2) (ht' : s + t < n), at2 TEb t e ht he = at2 TE (s + t) e ht' he)
    (t j d : Nat) (ht : t < nb) (hd : d < 64) (t' j' d' : Nat) (ht' : t' < n) (hd' : d' < 64)
    (et : t' = s + t) (ej : j' = j) (ed : d' = d) :
    tokenAt nb z Zb SPb TEb t j d ht hd = tokenAt n z Z SP TE t' j' d' ht' hd' := by
  subst et ej ed
  unfold tokenAt
  by_cases h1 : j' < 25
  · rw [dif_pos h1, dif_pos h1]
    by_cases h2 : d' < 61
    · rw [dif_pos h2, dif_pos h2]; exact hSP j' d' h1 h2
    · rw [dif_neg h2, dif_neg h2]
      by_cases h3 : d' = 61
      · rw [if_pos h3, if_pos h3]; exact hZ t j' ht h1 ht'
      · rw [if_neg h3, if_neg h3]; exact hTE t (d' - 62) ht (by omega) ht'
  · rw [dif_neg h1, dif_neg h1]

end Cert.Tokens

end
-- ==== Proof.TokenBlock.lean ====
/-
  One grid point of the kernel. The body fills its [1000, 32, 64] output block by four stores into disjoint boxes:
  rows 0–24, columns 0–60 take the 25 spatial embeddings (the same at every step); column 61 takes the block of
  readings, one per step and token; columns 62–63 take the block's time codes, the same for every token of a step;
  rows 25–31 take zeros. Each store's value, read at a position of its box, is the token tensor over 1000 steps at the
  position the box places it at — so what the four stores leave is that tensor, built from the point's three input
  blocks.
-/
import proofs.«122413_j31894427140137_2_alg».proof.Proof.Gen.KernelIdeal.Frame
import proofs.«122413_j31894427140137_2_alg».proof.Proof.Tokens
import Idealize.ShloMosaic.Lib.Pipeline.Value
import Idealize.ShloMosaic.Lib.ValueLayout
import Idealize.ShloMosaic.Lib.Tactic

noncomputable section

namespace Cert.KernelIdeal.TokenBlock

open Idealize.ShloMosaic Idealize.ShloMosaic.TcCoe Idealize.SL.Sem Idealize.ShloMosaic.ValueIdx
open Cert.KernelIdeal Cert.KernelIdeal.Gen Cert.Tokens

variable {F : FTy → Type} [FloatOps F]

/-- The word the padding rows are filled with. -/
abbrev zeroWord : F .f32 := Scalar.ofBits .f32 0x00000000#32

/-- The spatial embeddings, broadcast over the block's 1000 steps, read at step `y 0`, token `y 1`, column `y 2`:
    the embedding of token `y 1` at column `y 2`, whatever the step. -/
theorem place_at (x1 : Vec F S25x61 .f32) (y : S1000x25x61.Idx) :
    k0_pay1 x1 y = at2 x1 (y 1).val (y 2).val (y 1).isLt (y 2).isLt := by
  unfold k0_pay1
  simp only [shapeCast_self]
  refine (broadcastTo_apply _ _ y (ix3 (0 : Fin 1) (⟨(y 1).val, (y 1).isLt⟩ : Fin 25) (⟨(y 2).val, (y 2).isLt⟩ : Fin 61))
    (fun a => ?_)).trans ?_
  · match a with
    | ⟨0, _⟩ => show 0 = if (1 : Nat) = 1 then 0 else (y 0).val; rw [if_pos rfl]
    | ⟨1, _⟩ => show (y 1).val = if (25 : Nat) = 1 then 0 else (y 1).val; rw [if_neg (by decide)]
    | ⟨2, _⟩ => show (y 2).val = if (61 : Nat) = 1 then 0 else (y 2).val; rw [if_neg (by decide)]
  · exact shapeCast_ab_1ab_apply x1 _ _ _ _

/-- The block of readings with a unit column axis added, read at step `y 0`, token `y 1` (and column 0): the reading. -/
theorem reading_at (x0 : Vec F S1000x25 .f32) (y : S1000x25x1.Idx) :
    k0_pay3 x0 y = at2 x0 (y 0).val (y 1).val (y 0).isLt (y 1).isLt := by
  unfold k0_pay3
  simp only [shapeCast_self]
  refine shapeCast_apply x0 _ y (ix2 (⟨(y 0).val, (y 0).isLt⟩ : Fin 1000) (⟨(y 1).val, (y 1).isLt⟩ : Fin 25)) ?_
  have h2 : (y 2).val < 1 := (y 2).isLt
  rw [Shape.rowMajor_val_two, Shape.rowMajor_val_three]
  show (y 0).val * 25 + (y 1).val = ((y 0).val * 25 + (y 1).val) * 1 + (y 2).val
  omega

/-- The block of time codes, broadcast over the 25 tokens, read at step `y 0`, token `y 1`, column `y 2`: the code of the
    step at column `y 2`, whatever the token. -/
theorem time_at (x2 : Vec F S1000x2 .f32) (y : S1000x25x2.Idx) :
    k0_pay2 x2 y = at2 x2 (y 0).val (y 2).val (y 0).isLt (y 2).isLt := by
  unfold k0_pay2
  simp only [shapeCast_self]
  refine (broadcastTo_apply _ _ y (ix3 (⟨(y 0).val, (y 0).isLt⟩ : Fin 1000) (0 : Fin 1) (⟨(y 2).val, (y 2).isLt⟩ : Fin 2))
    (fun a => ?_)).trans ?_
  · match a with
    | ⟨0, _⟩ => show (y 0).val = if (1000 : Nat) = 1 then 0 else (y 0).val; rw [if_neg (by decide)]
    | ⟨1, _⟩ => show 0 = if (1 : Nat) = 1 then 0 else (y 1).val; rw [if_pos rfl]
    | ⟨2, _⟩ => show (y 2).val = if (2 : Nat) = 1 then 0 else (y 2).val; rw [if_neg (by decide)]
  · refine shapeCast_apply x2 _ _ (ix2 (⟨(y 0).val, (y 0).isLt⟩ : Fin 1000) (⟨(y 2).val, (y 2).isLt⟩ : Fin 2)) ?_
    rw [Shape.rowMajor_val_two, Shape.rowMajor_val_three]
    show (y 0).val * 2 + (y 2).val = ((y 0).val * 1 + 0) * 2 + (y 2).val
    omega

/-- The padding store's value is the zero word everywhere. -/
theorem pad_at (y : S1000x7x64.Idx) : k0_pay4 (F := F) y = zeroWord := rfl

theorem hz2 : (![0, 0] : Fin 2 → Nat) = fun _ => 0 := funext fun a => by fin_cases a <;> rfl

/-- A position `x` of a box with unit strides sits, on axis `a`, at the box's offset plus `x`'s coordinate. -/
theorem unit_emb_val {s : Shape} (off size : Fin s.rank → Nat) (inb : ∀ a, off a + size a ≤ s.size a)
    (x : (Rect.unit off size inb).shape.Idx) (a : Fin s.rank) :
    ((Rect.unit off size inb).emb x a).val = off a + (x a).val := by
  show off a + 1 * (x a).val = _
  rw [Nat.one_mul]

/-- What the four stores leave in the output block: the token tensor over the block's 1000 steps, built from the
    point's block of readings `x0`, the spatial embeddings `x1` and the point's block of time codes `x2`. Every position of
    the block lies in one of the four boxes, and each store's value agrees there with the tensor. -/
theorem block_eq (c : Dev nD) (i : grid0.Coords) (a1 : Memref sig .tc .vmem S1000x25 .f32) (h1 : a1.IsWhole)
    (a2 : Memref sig .tc .vmem S25x61 .f32) (h2 : a2.IsWhole) (a3 : Memref sig .tc .vmem S1000x2 .f32) (h3 : a3.IsWhole)
    (a4 : Memref sig .tc .vmem S1000x32x64 .f32) (h4 : a4.IsWhole)
    (x0 : Vec F S1000x25 .f32) (x1 : Vec F S25x61 .f32) (x2 : Vec F S1000x2 .f32) :
    out0_A_3 c i a1 h1 a2 h2 a3 h3 a4 h4 x0 x1 x2 = tokens 1000 (zeroWord (F := F)) x0 x1 x2 := by
  funext y
  unfold out0_A_3
  refine View.read_writes_apply_of_pieces _ _ (tokens 1000 (zeroWord (F := F)) x0 x1 x2) _ ?_ y
    (cover0_A_3 c i a1 h1 a2 h2 a3 h3 a4 h4 x0 x1 x2 y)
  unfold kernelRun0_A
  dsimp only
  simp only [View.readAt_eq_ld, h1.read_unread, h2.read_unread, h3.read_unread, View.ld_unit_zero (S := S1000x25) hz2,
    View.ld_unit_zero (S := S25x61) hz2, View.ld_unit_zero (S := S1000x2) hz2]
  intro p hp
  simp only [List.mem_cons, List.not_mem_nil, or_false] at hp
  rcases hp with rfl | rfl | rfl | rfl
  · -- rows 25–31: padding
    dsimp only
    intro x
    have e1 : ((Rect.unit (s := S1000x32x64) ![0, 25, 0] ![1000, 7, 64] inb_S1000x32x64_S1000x7x64_0_25_0).emb x 1).val = 25 + (x 1).val :=
      unit_emb_val (s := S1000x32x64) ![0, 25, 0] ![1000, 7, 64] inb_S1000x32x64_S1000x7x64_0_25_0 x 1
    refine (pad_at x).trans (Eq.symm ?_)
    unfold tokens
    exact tokenAt_pad 1000 _ x0 x1 x2 _ _ _ _ _ (by omega)
  · -- columns 62–63 of the token rows: the time codes
    dsimp only
    intro x
    have e0 : ((Rect.unit (s := S1000x32x64) ![0, 0, 62] ![1000, 25, 2] inb_S1000x32x64_S1000x25x2_0_0_62).emb x 0).val = 0 + (x 0).val :=
      unit_emb_val (s := S1000x32x64) ![0, 0, 62] ![1000, 25, 2] inb_S1000x32x64_S1000x25x2_0_0_62 x 0
    have e1 : ((Rect.unit (s := S1000x32x64) ![0, 0, 62] ![1000, 25, 2] inb_S1000x32x64_S1000x25x2_0_0_62).emb x 1).val = 0 + (x 1).val :=
      unit_emb_val (s := S1000x32x64) ![0, 0, 62] ![1000, 25, 2] inb_S1000x32x64_S1000x25x2_0_0_62 x 1
    have e2 : ((Rect.unit (s := S1000x32x64) ![0, 0, 62] ![1000, 25, 2] inb_S1000x32x64_S1000x25x2_0_0_62).emb x 2).val = 62 + (x 2).val :=
      unit_emb_val (s := S1000x32x64) ![0, 0, 62] ![1000, 25, 2] inb_S1000x32x64_S1000x25x2_0_0_62 x 2
    have b1 : (x 1).val < 25 := (x 1).isLt
    refine (time_at x2 x).trans (Eq.symm ?_)
    unfold tokens
    refine (tokenAt_time 1000 _ x0 x1 x2 _ _ _ _ _ (by omega) (by omega)).trans ?_
    exact at2_congr x2 _ _ _ _ (by omega) (by omega)
  · -- column 61 of the token rows: the readings
    dsimp only
    intro x
    have e0 : ((Rect.unit (s := S1000x32x64) ![0, 0, 61] ![1000, 25, 1] inb_S1000x32x64_S1000x25x1_0_0_61).emb x 0).val = 0 + (x 0).val :=
      unit_emb_val (s := S1000x32x64) ![0, 0, 61] ![1000, 25, 1] inb_S1000x32x64_S1000x25x1_0_0_61 x 0
    have e1 : ((Rect.unit (s := S1000x32x64) ![0, 0, 61] ![1000, 25, 1] inb_S1000x32x64_S1000x25x1_0_0_61).emb x 1).val = 0 + (x 1).val :=
      unit_emb_val (s := S1000x32x64) ![0, 0, 61] ![1000, 25, 1] inb_S1000x32x64_S1000x25x1_0_0_61 x 1
    have e2 : ((Rect.unit (s := S1000x32x64) ![0, 0, 61] ![1000, 25, 1] inb_S1000x32x64_S1000x25x1_0_0_61).emb x 2).val = 61 + (x 2).val :=
      unit_emb_val (s := S1000x32x64) ![0, 0, 61] ![1000, 25, 1] inb_S1000x32x64_S1000x25x1_0_0_61 x 2
    have b1 : (x 1).val < 25 := (x 1).isLt
    have b2 : (x 2).val < 1 := (x 2).isLt
    refine (reading_at x0 x).trans (Eq.symm ?_)
    unfold tokens
    refine (tokenAt_reading 1000 _ x0 x1 x2 _ _ _ _ _ (by omega) (by omega)).trans ?_
    exact at2_congr x0 _ _ _ _ (by omega) (by omega)
  · -- columns 0–60 of the token rows: the spatial embeddings
    dsimp only
    intro x
    have e1 : ((Rect.unit (s := S1000x32x64) ![0, 0, 0] ![1000, 25, 61] inb_S1000x32x64_S1000x25x61_0_0_0).emb x 1).val = 0 + (x 1).val :=
      unit_emb_val (s := S1000x32x64) ![0, 0, 0] ![1000, 25, 61] inb_S1000x32x64_S1000x25x61_0_0_0 x 1
    have e2 : ((Rect.unit (s := S1000x32x64) ![0, 0, 0] ![1000, 25, 61] inb_S1000x32x64_S1000x25x61_0_0_0).emb x 2).val = 0 + (x 2).val :=
      unit_emb_val (s := S1000x32x64) ![0, 0, 0] ![1000, 25, 61] inb_S1000x32x64_S1000x25x61_0_0_0 x 2
    have b1 : (x 1).val < 25 := (x 1).isLt
    have b2 : (x 2).val < 61 := (x 2).isLt
    refine (place_at x1 x).trans (Eq.symm ?_)
    unfold tokens
    refine (tokenAt_place 1000 _ x0 x1 x2 _ _ _ _ _ (by omega) (by omega)).trans ?_
    exact at2_congr x1 _ _ _ _ (by omega) (by omega)

end Cert.KernelIdeal.TokenBlock

end
-- ==== Proof.TokenArray.lean ====
/-
  The kernel's result array. The grid has 100 points; point `t` reads steps 1000·t … 1000·t + 999 of the time-major
  readings and of the time codes, and all 25 spatial embeddings, and writes block `t` of the [100000, 32, 64] result.
  What a point writes is the token tensor over its 1000 steps (the block lemma), and cutting the token tensor over
  100000 steps along the time axis gives exactly those blocks; the 100 blocks cover the result, so the result is the
  token tensor of the three arrays the region reads. Two of those are computed by the host before the region: the
  readings (rows of `values` gathered at the wrapped node indices, minus `mu`, over `sigma`, transposed to time-major)
  and the embeddings gathered at the same indices; they are carried as two named functions of the arguments.
-/
import proofs.«122413_j31894427140137_2_alg».proof.Proof.Gen.KernelIdeal.Value
import proofs.«122413_j31894427140137_2_alg».proof.Proof.TokenBlock
import Idealize.ShloMosaic.Lib.Pipeline.Value
import Idealize.ShloMosaic.Lib.StableHlo.Run

noncomputable section

namespace Cert.KernelIdeal.TokenArray

open Idealize.ShloMosaic Idealize.ShloMosaic.TcCoe Idealize.SL.Sem Idealize.ShloMosaic.StableHlo
open Idealize.ShloMosaic.ValueIdx
open Idealize.ShloMosaic.Pipeline (Dat)
open Cert.KernelIdeal Cert.KernelIdeal.Gen Cert.KernelIdeal.Value Cert.Tokens Cert.KernelIdeal.TokenBlock

variable {F : FTy → Type} [FloatOps F]

/-! ## The two arrays the host prepares -/

/-- The node indices as the host uses them: a negative index counts from the end (500 is added to it). -/
def nodes (x5 : (⟨S25, .i32⟩ : BufTy).Contents (Elt F)) : (⟨S25x1, .i32⟩ : BufTy).Contents (Elt F) :=
  broadcastInDim S25x1 ![0] bcast_S25_S25x1_0
    (select (cmpi .slt x5 (broadcastInDim S25 ![] bcast_S_S25 (constantI S_ 32 0#32)))
      (addi x5 (broadcastInDim S25 ![] bcast_S_S25 (constantI S_ 32 500#32))) x5)

/-- The normalised readings, time-major: entry `(t, j)` is `(values[node j, t] - mu) / sigma`. -/
def readings (x0 : (⟨S500x100000, .f32⟩ : BufTy).Contents (Elt F)) (x3 x4 : (⟨S1, .f32⟩ : BufTy).Contents (Elt F))
    (x5 : (⟨S25, .i32⟩ : BufTy).Contents (Elt F)) : (⟨S100000x25, .f32⟩ : BufTy).Contents (Elt F) :=
  transpose S100000x25 [1, 0]
    (Host.divf
      (subf (Host.gather gather_S500x100000_S25x1_S25x100000_1_0_n_n_0_1_1100000 x0 (nodes (F := F) x5))
        (broadcastInDim S25x100000 ![] bcast_S_S25x100000 (shapeCast _ x3 shapeCasts_S1_S_)))
      (broadcastInDim S25x100000 ![] bcast_S_S25x100000 (shapeCast _ x4 shapeCasts_S1_S_)))
    transposes_S25x100000_S100000x25_1_0

/-- The spatial embeddings of the 25 tokens' nodes. -/
def places (x2 : (⟨S500x61, .f32⟩ : BufTy).Contents (Elt F)) (x5 : (⟨S25, .i32⟩ : BufTy).Contents (Elt F)) :
    (⟨S25x61, .f32⟩ : BufTy).Contents (Elt F) :=
  Host.gather gather_S500x61_S25x1_S25x61_1_0_n_n_0_1_161 x2 (nodes (F := F) x5)

variable (m : (ℓ : Loc nD τ sig) → Buf (Elt F) ℓ) (ρ : Dev nD → PrngReg)

/-- The region finds the readings in the first window's array. -/
theorem readings_found (c : Dev nD) :
    (V m c main_v13 : S100000x25.Idx → F .f32)
      = readings (F := F) (m ((c : Thread nD τ).loc main_arg0)) (m ((c : Thread nD τ).loc main_arg3))
          (m ((c : Thread nD τ).loc main_arg4)) (m ((c : Thread nD τ).loc main_arg5)) := by
  dsimp only [Gen.V, Gen.hostOps0]
  after_results_simp
  rfl

set_option maxHeartbeats 2000000 in
/-- The region finds the gathered embeddings in the second window's array. -/
theorem places_found (c : Dev nD) :
    (V m c main_v20 : S25x61.Idx → F .f32)
      = places (F := F) (m ((c : Thread nD τ).loc main_arg2)) (m ((c : Thread nD τ).loc main_arg5)) := by
  dsimp only [Gen.V, Gen.hostOps0]
  after_results_simp
  rfl

/-! ## The blocks a point reads -/

/-- The index maps over the grid: the windows over the readings, the time codes and the result move one block along
    the time axis per point; the embeddings' window stays. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Point `t`'s block of readings at `(p, q)` is the readings at step `1000·t + p`, token `q`. -/
theorem readings_block (c : Dev nD) (t : Fin cfg0.N) (p q : Nat) (hp : p < 1000) (hq : q < 25)
    (hp' : t.val * 1000 + p < 100000) :
    at2 (a := 1000) (b := 25) (iblk m c 0 t : Vec F S1000x25 .f32) p q hp hq
      = at2 (a := 100000) (b := 25) (V m c main_v13 : S100000x25.Idx → F .f32) (t.val * 1000 + p) q hp' hq := by
  obtain ⟨e0, e1, -⟩ := index_facts t
  unfold at2
  show V m c main_v13 (((cfg0.win 0).blk t).view.emb (ix2 (⟨p, hp⟩ : Fin 1000) (⟨q, hq⟩ : Fin 25)))
    = V m c main_v13 (ix2 (⟨t.val * 1000 + p, hp'⟩ : Fin 100000) (⟨q, hq⟩ : Fin 25))
  refine congrArg (V m c main_v13) (funext fun a => Fin.ext ?_)
  match a with
  | ⟨0, _⟩ => show win0_0.index t (0 : Fin 2) * 1000 + 1 * p = t.val * 1000 + p; rw [e0]; omega
  | ⟨1, _⟩ => show win0_0.index t (1 : Fin 2) * 25 + 1 * q = q; rw [e1]; omega

/-- Every point's block of embeddings is all of them. -/
theorem places_block (c : Dev nD) (t : Fin cfg0.N) (p q : Nat) (hp : p < 25) (hq : q < 61) :
    at2 (a := 25) (b := 61) (iblk m c 1 t : Vec F S25x61 .f32) p q hp hq
      = at2 (a := 25) (b := 61) (V m c main_v20 : S25x61.Idx → F .f32) p q hp hq := by
  obtain ⟨-, -, e0, e1, -⟩ := index_facts t
  unfold at2
  show V m c main_v20 (((cfg0.win 1).blk t).view.emb (ix2 (⟨p, hp⟩ : Fin 25) (⟨q, hq⟩ : Fin 61)))
    = V m c main_v20 (ix2 (⟨p, hp⟩ : Fin 25) (⟨q, hq⟩ : Fin 61))
  refine congrArg (V m c main_v20) (funext fun a => Fin.ext ?_)
  match a with
  | ⟨0, _⟩ => show win0_1.index t (0 : Fin 2) * 25 + 1 * p = p; rw [e0]; omega
  | ⟨1, _⟩ => show win0_1.index t (1 : Fin 2) * 61 + 1 * q = q; rw [e1]; omega

/-- Point `t`'s block of time codes at `(p, q)` is the code of step `1000·t + p` at `q`. -/
theorem times_block (c : Dev nD) (t : Fin cfg0.N) (p q : Nat) (hp : p < 1000) (hq : q < 2)
    (hp' : t.val * 1000 + p < 100000) :
    at2 (a := 1000) (b := 2) (iblk m c 2 t : Vec F S1000x2 .f32) p q hp hq
      = at2 (a := 100000) (b := 2) (V m c main_arg1 : S100000x2.Idx → F .f32) (t.val * 1000 + p) q hp' hq := by
  obtain ⟨-, -, -, -, e0, e1, -⟩ := index_facts t
  unfold at2
  show V m c main_arg1 (((cfg0.win 2).blk t).view.emb (ix2 (⟨p, hp⟩ : Fin 1000) (⟨q, hq⟩ : Fin 2)))
    = V m c main_arg1 (ix2 (⟨t.val * 1000 + p, hp'⟩ : Fin 100000) (⟨q, hq⟩ : Fin 2))
  refine congrArg (V m c main_arg1) (funext fun a => Fin.ext ?_)
  match a with
  | ⟨0, _⟩ => show win0_2.index t (0 : Fin 2) * 1000 + 1 * p = t.val * 1000 + p; rw [e0]; omega
  | ⟨1, _⟩ => show win0_2.index t (1 : Fin 2) * 2 + 1 * q = q; rw [e1]; omega

/-! ## From the blocks to the array -/

/-- The token tensor over all 100000 steps, built from the three arrays as the region finds them. -/
def result (c : Dev nD) : S100000x32x64.Idx → F .f32 :=
  tokens 100000 (zeroWord (F := F)) (V m c main_v13 : S100000x25.Idx → F .f32) (V m c main_v20 : S25x61.Idx → F .f32)
    (V m c main_arg1 : S100000x2.Idx → F .f32)

/-- What point `t` writes back is block `t` of that tensor: the block's step `p` is step `1000·t + p` of the array, its
    rows and columns are the array's. -/
theorem flushed_eq (c : Dev nD) (t : Fin cfg0.N) :
    (dats m 0 c).flushed 3 t = ((cfg0.win 3).blk t).view.read (Elt F) (result m c) := by
  rw [flushed3_A, block_eq]
  obtain ⟨-, -, -, -, -, -, e0, e1, e2⟩ := index_facts t
  funext y
  show tokens 1000 (zeroWord (F := F)) (iblk m c 0 t : Vec F S1000x25 .f32) (iblk m c 1 t : Vec F S25x61 .f32)
      (iblk m c 2 t : Vec F S1000x2 .f32) y
    = result m c (((cfg0.win 3).blk t).view.emb y)
  unfold result tokens
  refine tokenAt_block 100000 _ _ _ _ 1000 _ _ _ (t.val * 1000)
    (fun p q hp hq hp' => readings_block m c t p q hp hq hp') (fun p q hp hq => places_block m c t p q hp hq)
    (fun p q hp hq hp' => times_block m c t p q hp hq hp') _ _ _ _ _ _ _ _ _ _ ?_ ?_ ?_
  · show win0_3.index t (0 : Fin 3) * 1000 + 1 * (y 0).val = t.val * 1000 + (y 0).val
    rw [e0]; omega
  · show win0_3.index t (1 : Fin 3) * 32 + 1 * (y 1).val = (y 1).val
    rw [e1]; omega
  · show win0_3.index t (2 : Fin 3) * 64 + 1 * (y 2).val = (y 2).val
    rw [e2]; omega

/-- An index of the result is in point `t`'s block iff each coordinate is in the block's range on its axis. -/
theorem mem_blk (t : Fin cfg0.N) (i : S100000x32x64.Idx) :
    i ∈ ((cfg0.win 3).blk t).view.set ↔ ∀ a : Fin 3, win0_3.index t a * S1000x32x64.size a ≤ (i a).val
      ∧ (i a).val < win0_3.index t a * S1000x32x64.size a + S1000x32x64.size a := by
  show i ∈ ((View.whole main_v21).slice (win0_3.rect t)).set ↔ _
  rw [View.set_slice_whole, Rect.mem_set_unit]
  exact Iff.rfl

/-- Every index of the result lies in the block of the point its step falls in, `t = step / 1000`. -/
theorem covered (i : S100000x32x64.Idx) :
    ∃ t : Fin cfg0.N, (cfg0.win 3).flush t = true ∧ i ∈ ((cfg0.win 3).blk t).view.set := by
  have h0 : (i 0).val < 100000 := (i 0).isLt
  have h1 : (i 1).val < 32 := (i 1).isLt
  have h2 : (i 2).val < 64 := (i 2).isLt
  have hN : cfg0.N = 100 := N_0
  obtain ⟨t, ht⟩ : ∃ t : Fin cfg0.N, t.val = (i 0).val / 1000 := ⟨⟨(i 0).val / 1000, by rw [hN]; omega⟩, rfl⟩
  obtain ⟨-, -, -, -, -, -, e0, e1, e2⟩ := index_facts t
  refine ⟨t, flush0_3 t, ?_⟩
  rw [mem_blk]
  intro a
  match a with
  | ⟨0, _⟩ =>
    show win0_3.index t (0 : Fin 3) * 1000 ≤ (i 0).val ∧ (i 0).val < win0_3.index t (0 : Fin 3) * 1000 + 1000
    rw [e0, ht]; omega
  | ⟨1, _⟩ =>
    show win0_3.index t (1 : Fin 3) * 32 ≤ (i 1).val ∧ (i 1).val < win0_3.index t (1 : Fin 3) * 32 + 32
    rw [e1]; omega
  | ⟨2, _⟩ =>
    show win0_3.index t (2 : Fin 3) * 64 ≤ (i 2).val ∧ (i 2).val < win0_3.index t (2 : Fin 3) * 64 + 64
    rw [e2]; omega

/-- So the result array ends holding the token tensor of the arrays the region found. -/
theorem final (c : Dev nD) : (dats m 0 c).arrAt 3 cfg0.N = result m c :=
  (dats m 0 c).arrAt_eq_of_cover 3 (result m c) (fun t _ => flushed_eq m c t) covered

/-- … which is the token tensor of the host's readings and gathered embeddings and of the time codes as launched. -/
theorem result_eq (c : Dev nD) :
    result m c = tokens 100000 (zeroWord (F := F))
      (readings (F := F) (m ((c : Thread nD τ).loc main_arg0)) (m ((c : Thread nD τ).loc main_arg3))
        (m ((c : Thread nD τ).loc main_arg4)) (m ((c : Thread nD τ).loc main_arg5)))
      (places (F := F) (m ((c : Thread nD τ).loc main_arg2)) (m ((c : Thread nD τ).loc main_arg5)))
      (m ((c : Thread nD τ).loc main_arg1)) := by
  unfold result
  rw [readings_found, places_found, V_main_arg1]

/-- The kernel's run, read: the result array at the token tensor of the arguments, the arguments unchanged. -/
theorem run : θ_run defs (onTc (τ := τ) (main (F := F))) ⟨m, fun _ => 0, ρ⟩ fun r => ∀ c : Dev nD,
      r.2.mem ((c : Thread nD τ).loc main_v21) = tokens 100000 (zeroWord (F := F))
        (readings (F := F) (m ((c : Thread nD τ).loc main_arg0)) (m ((c : Thread nD τ).loc main_arg3))
          (m ((c : Thread nD τ).loc main_arg4)) (m ((c : Thread nD τ).loc main_arg5)))
        (places (F := F) (m ((c : Thread nD τ).loc main_arg2)) (m ((c : Thread nD τ).loc main_arg5)))
        (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (result_eq m c)), (h c).2⟩) (run_blocks m ρ)

end Cert.KernelIdeal.TokenArray

end
-- ==== Proof.TokenReference.lean ====
/-
  The reference's result, read one entry at a time. The reference joins, along the last axis, the spatial embeddings
  broadcast over the steps (61 columns), the time-major readings with a unit axis added (1 column) and the time codes
  broadcast over the 25 tokens (2 columns); then joins, along the middle axis, 7 rows of zeros below the 25 token rows.
  An entry `(t, j, d)` therefore comes from the piece its row `j` and column `d` fall in — which is the case
  distinction that defines the token tensor — and each broadcast reads its operand at the coordinates it keeps.
-/
import proofs.«122413_j31894427140137_2_alg».proof.Proof.Gen.ReferenceIdeal.Read
import proofs.«122413_j31894427140137_2_alg».proof.Proof.Tokens
import Idealize.ShloMosaic.Lib.Pipeline.Value

noncomputable section

namespace Cert.ReferenceIdeal.TokenReference

open Idealize.ShloMosaic Idealize.ShloMosaic.TcCoe Idealize.SL.Sem Idealize.ShloMosaic.ValueIdx
open Cert.ReferenceIdeal Cert.ReferenceIdeal.Gen Cert.ReferenceIdeal.Read Cert.Tokens

variable {F : FTy → Type} [FloatOps F]

variable (x0 : (⟨S500x100000, .f32⟩ : BufTy).Contents (Elt F)) (x1 : (⟨S100000x2, .f32⟩ : BufTy).Contents (Elt F))
  (x2 : (⟨S500x61, .f32⟩ : BufTy).Contents (Elt F)) (x3 x4 : (⟨S1, .f32⟩ : BufTy).Contents (Elt F))
  (x5 : (⟨S25, .i32⟩ : BufTy).Contents (Elt F))

/-- The embeddings broadcast over the steps, at step `t`, token `j`, column `d`: token `j`'s embedding at `d`. -/
theorem place_entry (t : Fin 100000) (j : Fin 25) (d : Fin 61) :
    val_main_v23 (F := F) x2 x5 (ix3 t j d)
      = at2 (a := 25) (b := 61) (val_main_v21 (F := F) x2 x5 : S25x61.Idx → F .f32) j.val d.val j.isLt d.isLt := by
  rw [val_main_v23_apply, val_main_v22_apply]
  unfold at2
  exact congrArg (val_main_v21 (F := F) x2 x5) (funext fun a => by match a with | ⟨0, _⟩ => rfl | ⟨1, _⟩ => rfl)

/-- The readings with a unit axis added, at step `t`, token `j`: the reading. -/
theorem reading_entry (t : Fin 100000) (j : Fin 25) (u : Fin 1) :
    val_main_v14 (F := F) x0 x3 x4 x5 (ix3 t j u)
      = at2 (a := 100000) (b := 25) (val_main_v13 (F := F) x0 x3 x4 x5 : S100000x25.Idx → F .f32) t.val j.val t.isLt j.isLt := by
  rw [val_main_v14_apply]
  unfold at2
  exact congrArg (val_main_v13 (F := F) x0 x3 x4 x5) (funext fun a => by match a with | ⟨0, _⟩ => rfl | ⟨1, _⟩ => rfl)

/-- The time codes broadcast over the tokens, at step `t`, token `j`, column `e`: step `t`'s code at `e`. -/
theorem time_entry (t : Fin 100000) (j : Fin 25) (e : Fin 2) :
    val_main_v25 (F := F) x1 (ix3 t j e)
      = at2 (a := 100000) (b := 2) (x1 : S100000x2.Idx → F .f32) t.val e.val t.isLt e.isLt := by
  rw [val_main_v25_apply, val_main_v24_apply]
  unfold at2
  exact congrArg x1 (funext fun a => by match a with | ⟨0, _⟩ => rfl | ⟨1, _⟩ => rfl)

/-- The padding rows hold the zero word. -/
theorem pad_entry (i : S100000x7x64.Idx) : val_main_v27 (F := F) i = FloatOps.ofBits .f32 0x00000000#32 := by
  rw [val_main_v27_apply, val_main_cst_apply]

/-- THE REFERENCE'S RESULT is the token tensor of its readings (the time-major normalised values), its gathered
    embeddings and the time codes: an entry of a token row comes from the first piece of the row join and, there, from
    the piece of the column join its column falls in; an entry of a padding row from the zeros. -/
theorem reference_eq :
    val_main_v28 (F := F) x0 x1 x2 x3 x4 x5
      = tokens 100000 (FloatOps.ofBits .f32 0x00000000#32 : F .f32)
          (val_main_v13 (F := F) x0 x3 x4 x5 : S100000x25.Idx → F .f32)
          (val_main_v21 (F := F) x2 x5 : S25x61.Idx → F .f32) (x1 : S100000x2.Idx → F .f32) := by
  funext i
  have b0 : (i 0).val < 100000 := (i 0).isLt
  have b1 : (i 1).val < 32 := (i 1).isLt
  have b2 : (i 2).val < 64 := (i 2).isLt
  unfold tokens val_main_v28
  by_cases h1 : (i 1).val < 25
  · -- a token row: the first piece of the row join, at the same coordinates
    refine (concatenate_apply_piece (t := S100000x32x64) (1 : Fin 3) [⟨S100000x25x64, val_main_v26 (F := F) x0 x1 x2 x3 x4 x5⟩, ⟨S100000x7x64, val_main_v27 (F := F)⟩] _ i 0 (Nat.zero_lt_succ _) S100000x25x64 (val_main_v26 (F := F) x0 x1 x2 x3 x4 x5) rfl rfl
      0 rfl (ix3 (⟨(i 0).val, b0⟩ : Fin 100000) (⟨(i 1).val, h1⟩ : Fin 25) (⟨(i 2).val, b2⟩ : Fin 64))
      (fun b hb => ?_) ?_).trans ?_
    · match b with
      | ⟨0, _⟩ => rfl
      | ⟨1, _⟩ => exact absurd rfl hb
      | ⟨2, _⟩ => rfl
    · show 0 + (i 1).val = (i 1).val
      omega
    unfold val_main_v26
    by_cases h2 : (i 2).val < 61
    · -- columns 0–60: the embeddings
      refine (concatenate_apply_piece (t := S100000x25x64) (2 : Fin 3) [⟨S100000x25x61, val_main_v23 (F := F) x2 x5⟩, ⟨S100000x25x1, val_main_v14 (F := F) x0 x3 x4 x5⟩, ⟨S100000x25x2, val_main_v25 (F := F) x1⟩] _ _ 0 (Nat.zero_lt_succ _) S100000x25x61 (val_main_v23 (F := F) x2 x5) rfl rfl
        0 rfl (ix3 (⟨(i 0).val, b0⟩ : Fin 100000) (⟨(i 1).val, h1⟩ : Fin 25) (⟨(i 2).val, h2⟩ : Fin 61))
        (fun b hb => ?_) ?_).trans ?_
      · match b with
        | ⟨0, _⟩ => rfl
        | ⟨1, _⟩ => rfl
        | ⟨2, _⟩ => exact absurd rfl hb
      · show 0 + (i 2).val = (i 2).val
        omega
      exact (place_entry x2 x5 _ _ _).trans (tokenAt_place 100000 _ _ _ _ _ _ _ _ _ h1 h2).symm
    · by_cases h3 : (i 2).val = 61
      · -- column 61: the readings
        refine (concatenate_apply_piece (t := S100000x25x64) (2 : Fin 3) [⟨S100000x25x61, val_main_v23 (F := F) x2 x5⟩, ⟨S100000x25x1, val_main_v14 (F := F) x0 x3 x4 x5⟩, ⟨S100000x25x2, val_main_v25 (F := F) x1⟩] _ _ 1 (Nat.succ_lt_succ (Nat.zero_lt_succ _)) S100000x25x1 (val_main_v14 (F := F) x0 x3 x4 x5) rfl rfl
          61 rfl (ix3 (⟨(i 0).val, b0⟩ : Fin 100000) (⟨(i 1).val, h1⟩ : Fin 25) (⟨(i 2).val - 61, by omega⟩ : Fin 1))
          (fun b hb => ?_) ?_).trans ?_
        · match b with
          | ⟨0, _⟩ => rfl
          | ⟨1, _⟩ => rfl
          | ⟨2, _⟩ => exact absurd rfl hb
        · show 61 + ((i 2).val - 61) = (i 2).val
          omega
        exact (reading_entry x0 x3 x4 x5 _ _ _).trans (tokenAt_reading 100000 _ _ _ _ _ _ _ _ _ h1 h3).symm
      · -- columns 62–63: the time codes
        refine (concatenate_apply_piece (t := S100000x25x64) (2 : Fin 3) [⟨S100000x25x61, val_main_v23 (F := F) x2 x5⟩, ⟨S100000x25x1, val_main_v14 (F := F) x0 x3 x4 x5⟩, ⟨S100000x25x2, val_main_v25 (F := F) x1⟩] _ _ 2 (Nat.succ_lt_succ (Nat.succ_lt_succ (Nat.zero_lt_succ _))) S100000x25x2 (val_main_v25 (F := F) x1) rfl rfl
          62 rfl (ix3 (⟨(i 0).val, b0⟩ : Fin 100000) (⟨(i 1).val, h1⟩ : Fin 25) (⟨(i 2).val - 62, by omega⟩ : Fin 2))
          (fun b hb => ?_) ?_).trans ?_
        · match b with
          | ⟨0, _⟩ => rfl
          | ⟨1, _⟩ => rfl
          | ⟨2, _⟩ => exact absurd rfl hb
        · show 62 + ((i 2).val - 62) = (i 2).val
          omega
        exact (time_entry x1 _ _ _).trans (tokenAt_time 100000 _ _ _ _ _ _ _ _ _ h1 (by omega)).symm
  · -- a padding row: the second piece of the row join, 25 rows up
    refine (concatenate_apply_piece (t := S100000x32x64) (1 : Fin 3) [⟨S100000x25x64, val_main_v26 (F := F) x0 x1 x2 x3 x4 x5⟩, ⟨S100000x7x64, val_main_v27 (F := F)⟩] _ i 1 (Nat.succ_lt_succ (Nat.zero_lt_succ _)) S100000x7x64 (val_main_v27 (F := F)) rfl rfl
      25 rfl (ix3 (⟨(i 0).val, b0⟩ : Fin 100000) (⟨(i 1).val - 25, by omega⟩ : Fin 7) (⟨(i 2).val, b2⟩ : Fin 64))
      (fun b hb => ?_) ?_).trans ?_
    · match b with
      | ⟨0, _⟩ => rfl
      | ⟨1, _⟩ => exact absurd rfl hb
      | ⟨2, _⟩ => rfl
    · show 25 + ((i 1).val - 25) = (i 1).val
      omega
    exact (pad_entry _).trans (tokenAt_pad 100000 _ _ _ _ _ _ _ _ _ (by omega)).symm

end Cert.ReferenceIdeal.TokenReference

end
-- ==== Proof.lean ====
/-
  The kernel builds, for each of 100000 time steps, 32 rows of 64 numbers: 25 token rows (a node and its 24
  neighbours), each holding the node's 61-number spatial embedding, its reading at the step normalised as
  `(value - mu) / sigma`, and the step's 2-number time code; then 7 rows of zeros. The reference builds the same tensor
  by broadcasting and joining whole arrays. Both programs compute the normalised readings and gather the embeddings on
  the host by the same operations of the same arguments, so no arithmetic separates them: the kernel's result (its
  100 blocks of 1000 steps, each assembled by four stores) and the reference's joins are both the token tensor
  `Cert.Tokens.tokens` of the same three arrays. The ideal reading rewrote nothing, the three programs run to the
  end with their arguments unchanged, and the precondition is never opened.
-/
import proofs.«122413_j31894427140137_2_alg».proof.Defs
import proofs.«122413_j31894427140137_2_alg».proof.Proof.Gen.Kernel
import proofs.«122413_j31894427140137_2_alg».proof.Proof.Gen.Kernel.Skeleton
import proofs.«122413_j31894427140137_2_alg».proof.Proof.Gen.Kernel.Launch
import proofs.«122413_j31894427140137_2_alg».proof.Proof.Gen.Kernel.Points
import proofs.«122413_j31894427140137_2_alg».proof.Proof.Gen.Kernel.Frame
import proofs.«122413_j31894427140137_2_alg».proof.Proof.Gen.KernelIdeal
import proofs.«122413_j31894427140137_2_alg».proof.Proof.Gen.KernelIdeal.Skeleton
import proofs.«122413_j31894427140137_2_alg».proof.Proof.Gen.KernelIdeal.Launch
import proofs.«122413_j31894427140137_2_alg».proof.Proof.Gen.KernelIdeal.Points
import proofs.«122413_j31894427140137_2_alg».proof.Proof.Gen.KernelIdeal.Frame
import proofs.«122413_j31894427140137_2_alg».proof.Proof.Gen.ReferenceIdeal
import proofs.«122413_j31894427140137_2_alg».proof.Proof.Gen.Pre_finite_inputs
import proofs.«122413_j31894427140137_2_alg».proof.Proof.Gen.KernelIdeal.Value
import proofs.«122413_j31894427140137_2_alg».proof.Proof.Gen.ReferenceIdeal.Run
import proofs.«122413_j31894427140137_2_alg».proof.Proof.Gen.ReferenceIdeal.Read
import proofs.«122413_j31894427140137_2_alg».proof.Proof.TokenArray
import proofs.«122413_j31894427140137_2_alg».proof.Proof.TokenReference
import Idealize.ShloMosaic.Adequacy
import Idealize.ShloMosaic.Init

noncomputable section

namespace Cert.Proof

open Idealize.ShloMosaic Idealize.ShloMosaic.TcCoe Idealize.SL.Sem

/-- The host's time-major normalised readings are one function of the arguments in both programs: the same
    operations, in the same order. -/
theorem readings_same (x0 : (⟨Cert.KernelIdeal.S500x100000, .f32⟩ : BufTy).Contents (Elt Ideal))
    (x3 x4 : (⟨Cert.KernelIdeal.S1, .f32⟩ : BufTy).Contents (Elt Ideal))
    (x5 : (⟨Cert.KernelIdeal.S25, .i32⟩ : BufTy).Contents (Elt Ideal)) :
    Cert.ReferenceIdeal.Read.val_main_v13 (F := Ideal) x0 x3 x4 x5
      = Cert.KernelIdeal.TokenArray.readings (F := Ideal) x0 x3 x4 x5 := rfl

/-- So are the gathered embeddings. -/
theorem places_same (x2 : (⟨Cert.KernelIdeal.S500x61, .f32⟩ : BufTy).Contents (Elt Ideal))
    (x5 : (⟨Cert.KernelIdeal.S25, .i32⟩ : BufTy).Contents (Elt Ideal)) :
    Cert.ReferenceIdeal.Read.val_main_v21 (F := Ideal) x2 x5
      = Cert.KernelIdeal.TokenArray.places (F := Ideal) x2 x5 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the kernel was read over the extended reals. -/
theorem preserves : Cert.preserves_Kernel_KernelIdeal := trivial

/-- From memories that agree on the arguments, the kernel's result array and the reference's result are the token
    tensor of the same readings, embeddings and time codes. -/
theorem algebraic : Cert.algebraic_KernelIdeal_ReferenceIdeal := by
  intro m ρ m' ρ' _ hagree
  refine ⟨_, Cert.KernelIdeal.TokenArray.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v28_eq, Cert.ReferenceIdeal.TokenReference.reference_eq, a0, a1, a2, a3, a4, a5,
    readings_same, places_same]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
